-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x1024 : Shape := ⟨2, ![2048, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .f32⟩
  | .local _ .vmem, ⟨13, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 4], ![false, false, false]⟩

def k2_cond1 (i : grid2.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k2_cond2 (i : grid2.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  natLt_1_32 : 1 < 32
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x4096.size a
  hwx2_2 : ∀ i : grid2.Coords, EltTy.bits .f32 = 32 ∨ (Rect.block (s := S8192x4096) S2048x1024.size (cc2_transform_2 i) (hinb2_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond1 i == 1#1) && !(k2_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KB.R0.lean ====
/-
  Region 0 of the program's three kernel regions (the ternary quantization of the weight, 8 row blocks of 512 rows), at a PARAMETER `V`: the contents of the
  TensorCore's buffers when the region is entered. The body loads the whole input block, computes one pointwise
  payload of it and stores the result over the whole output block; so after the body the output's staging buffer
  holds that payload of the input block, whatever it held before, and the input's buffer is untouched. Stated here:
  the block an input window shows at a grid point (`iblk0`), what the body leaves (`out0_1`), the body's triple,
  the pipeline's proof data (`dat0`) and the body obligation at every grid point.
-/
import proofs.«173687_j21423296872678_2_alg».proof.Proof.Gen.Kernel.Launch
import proofs.«173687_j21423296872678_2_alg».proof.Proof.Gen.Kernel.Skeleton
import proofs.«173687_j21423296872678_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, its
    blocks tile the array, it is never idle), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole block. -/
abbrev r0_0 : Rect S512x4096 := Rect.unit (s := S512x4096) ![0, 0] S512x4096.size inb_S512x4096_S512x4096_0_0

/-- The output's staging buffer after the body: the payload of the input block, stored over the whole block. -/
def out0_1 (x0 : Vec F S512x4096 .f32) : Vec F S512x4096 .bf16 :=
  View.canon [⟨r0_0, k0_pay1 (View.ld x0 r0_0)⟩]

/-- The one store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers, the input's at contents `x0` and the output's at anything, runs to the
    continuation with the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the region finds them; after the body at point `t` the
    input's buffer at its block and the output's at the payload of that block; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/-
  Region 1 of the program's three kernel regions (the change of format of x, 16 row blocks of 512 rows), at a PARAMETER `V`: the contents of the
  TensorCore's buffers when the region is entered. The body loads the whole input block, computes one pointwise
  payload of it and stores the result over the whole output block; so after the body the output's staging buffer
  holds that payload of the input block, whatever it held before, and the input's buffer is untouched. Stated here:
  the block an input window shows at a grid point (`iblk1`), what the body leaves (`out1_1`), the body's triple,
  the pipeline's proof data (`dat1`) and the body obligation at every grid point.
-/
import proofs.«173687_j21423296872678_2_alg».proof.Proof.Gen.Kernel.Launch
import proofs.«173687_j21423296872678_2_alg».proof.Proof.Gen.Kernel.Skeleton
import proofs.«173687_j21423296872678_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point, its
    blocks tile the array, it is never idle), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole block. -/
abbrev r1_0 : Rect S512x4096 := Rect.unit (s := S512x4096) ![0, 0] S512x4096.size inb_S512x4096_S512x4096_0_0

/-- The output's staging buffer after the body: the payload of the input block, stored over the whole block. -/
def out1_1 (x0 : Vec F S512x4096 .f32) : Vec F S512x4096 .bf16 :=
  View.canon [⟨r1_0, k1_pay1 (View.ld x0 r1_0)⟩]

/-- The one store covers the block. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The body on whole staging buffers, the input's at contents `x0` and the output's at anything, runs to the
    continuation with the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` the
    input's buffer at its block and the output's at the payload of that block; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/-
  Region 2 of the program's three kernel regions (the blocked matrix product), at a PARAMETER `V`: the contents of
  the TensorCore's buffers when the region is entered. The grid is 4 × 4 × 4, the innermost axis running over the
  four blocks of the contracted axis; the output block of a grid point does not depend on that axis, so its staging
  buffer is carried through the four points of a run and written back at the last. At the first point of a run
  (innermost coordinate 0) the body stores the product of the two input blocks over the whole output block; at the
  three later points it loads the output block, adds the product of the point's input blocks, and stores the sum back.
  Stated here: which points are first points (`hcond2_1`, `hcond2_2`), the body's triple in each of the two cases,
  what the output's buffer holds after each point by recursion on the point (`outsAt2`), the pipeline's proof data
  (`dat2`) and the body obligation at every grid point.
-/
import proofs.«173687_j21423296872678_2_alg».proof.Proof.Gen.Kernel.Launch
import proofs.«173687_j21423296872678_2_alg».proof.Proof.Gen.Kernel.Skeleton
import proofs.«173687_j21423296872678_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Which points begin a run of the contracted axis -/

/-- The first conditional's condition holds exactly at the points whose innermost coordinate is 0. -/
theorem hcond2_1 : ∀ t : Fin cfg2.N, k2_cond1 (grid2.coords t) = 1#1 ↔ t.val % 4 = 0 :=
  (by decide +kernel : ∀ t : Fin grid2.N, k2_cond1 (grid2.coords t) = 1#1 ↔ t.val % 4 = 0)
/-- The second conditional's condition holds exactly at the other points. -/
theorem hcond2_2 : ∀ t : Fin cfg2.N, k2_cond2 (grid2.coords t) = 1#1 ↔ ¬ t.val % 4 = 0 :=
  (by decide +kernel : ∀ t : Fin grid2.N, k2_cond2 (grid2.coords t) = 1#1 ↔ ¬ t.val % 4 = 0)
/-- One of the two conditions holds at every setting of the coordinates: the body stores into the output block at
    every point, so the output window is idle nowhere. -/
theorem live2_2 : ∀ i : grid2.Coords, cfg2.idle 2 i = false :=
  (by decide +kernel : ∀ i : grid2.Coords, idle2 2 i = false)

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (unfetched, the
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: each whole block. -/
abbrev r2_0 : Rect S2048x1024 := Rect.unit (s := S2048x1024) ![0, 0] S2048x1024.size inb_S2048x1024_S2048x1024_0_0
abbrev r2_1 : Rect S1024x1024 := Rect.unit (s := S1024x1024) ![0, 0] S1024x1024.size inb_S1024x1024_S1024x1024_0_0

/-- The output's staging buffer after the body at a first point: the product of the two input blocks. -/
def out2_A (x0 : Vec F S2048x1024 .bf16) (x1 : Vec F S1024x1024 .bf16) : Vec F S2048x1024 .f32 :=
  View.canon [⟨r2_0, k2_pay1 (View.ld x0 r2_0) (View.ld x1 r2_1)⟩]
/-- The output's staging buffer after the body at a later point: what it held, plus the product of the two input blocks. -/
def out2_B (x0 : Vec F S2048x1024 .bf16) (x1 : Vec F S1024x1024 .bf16) (xo : Vec F S2048x1024 .f32) : Vec F S2048x1024 .f32 :=
  View.canon [⟨r2_0, k2_pay2 (View.ld x0 r2_0) (View.ld x1 r2_1) (View.ld xo r2_0)⟩]

/-- The one store covers the block. -/
theorem cover2_2 (p0 : Vec F S2048x1024 .f32) (y : S2048x1024.Idx) :
    ∃ pc ∈ ([⟨r2_0, p0⟩] : List (View.Piece (Elt F) S2048x1024 .f32)), y ∈ pc.1.set :=
  View.cover_of_tiled [⟨r2_0, p0⟩] S2048x1024.size (by rfl) y

set_option maxHeartbeats 1000000 in
/-- The body at a first point, on whole staging buffers, the inputs' at contents `x0`, `x1` and the output's at
    anything: it runs to the continuation with the inputs' as they were and the output's at `out2_A x0 x1`. -/
theorem sound_kernel2_A (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole)
    (hc1 : k2_cond1 i = 1#1) (hc2 : ¬ k2_cond2 i = 1#1)
    (x0 : Vec F S2048x1024 .bf16) (x1 : Vec F S1024x1024 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_A x0 x1)) -∗ K ⟨⟩))
      ⊢ wp frame (wpE (defs₀ (F := F)) Variants.none c none) E (cc2__matmul_kernel i arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

set_option maxHeartbeats 1000000 in
/-- The body at a later point, the output's staging buffer at contents `xo`: it runs to the continuation with the
    inputs' as they were and the output's at `out2_B x0 x1 xo`. -/
theorem sound_kernel2_B (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole)
    (hc1 : ¬ k2_cond1 i = 1#1) (hc2 : k2_cond2 i = 1#1)
    (x0 : Vec F S2048x1024 .bf16) (x1 : Vec F S1024x1024 .bf16) (xo : Vec F S2048x1024 .f32) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1 ∗ owns (c : Thread nD τ) arg5 fullShare (out2_B x0 x1 xo)) -∗ K ⟨⟩))
      ⊢ wp frame (wpE (defs₀ (F := F)) Variants.none c none) E (cc2__matmul_kernel i arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## What the output's buffer holds after each point -/

/-- THE ACCUMULATION. What the output's staging buffer holds after the body at position `n`: at a first point the
    product of the point's input blocks; at a later point that product added to what the point before left (the
    buffer is not written back between the points of a run). -/
def outsAt2 (c : Dev nD) : (n : ℕ) → n < cfg2.N → Vec F S2048x1024 .f32
  | 0, hn => out2_A (iblk2 V c 0 ⟨0, hn⟩) (iblk2 V c 1 ⟨0, hn⟩)
  | n + 1, hn =>
    if (n + 1) % 4 = 0 then
      out2_A (iblk2 V c 0 ⟨n + 1, hn⟩) (iblk2 V c 1 ⟨n + 1, hn⟩)
    else
      out2_B (iblk2 V c 0 ⟨n + 1, hn⟩) (iblk2 V c 1 ⟨n + 1, hn⟩) (outsAt2 c n (Nat.lt_of_succ_lt hn))

theorem outsAt2_A (c : Dev nD) (t : Fin cfg2.N) (h0 : t.val % 4 = 0) :
    outsAt2 V c t.val t.isLt = out2_A (iblk2 V c 0 t) (iblk2 V c 1 t) := by
  obtain ⟨n, hn⟩ := t
  cases n with
  | zero => exact rfl
  | succ n => exact (if_pos h0).trans rfl

theorem outsAt2_B (c : Dev nD) (t : Fin cfg2.N) (h0 : ¬t.val % 4 = 0) :
    outsAt2 V c t.val t.isLt = out2_B (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data on core `c`: the arrays as the region finds them; after the body at point `t` each input's
    buffer at its block and the output's at `outsAt2`; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point of a run the output's current staging buffer holds what the body left at the point before: the
    point is not the first of the grid, the buffer was not written back between, the window is live and uncut. -/
theorem before2_2_B (c : Dev nD) (t : Fin cfg2.N) (h0 : ¬t.val % 4 = 0) (d) :
    (dat2 V c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    live2_2 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body at any point: the inputs' buffers hold their blocks; the point is a first point of a run or a later one,
    and at a later one the output's buffer holds what the point before left; so the case's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val % 4 = 0
  · rw [outsAt2_A V c t h0]
    iintro ⟨HΦ, Ho, ⟨%d0, H0⟩, ⟨%d1, H1⟩, ⟨%d2, H2⟩⟩
    iapply (sound_kernel2_A c Set.univ _ _ _ _ _ _ _ ((hcond2_1 t).mpr h0) (fun h => (hcond2_2 t).mp h h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt2_B V c t h0]
    simp only [before2_2_B V c t h0]
    iintro ⟨HΦ, Ho, ⟨%d0, H0⟩, ⟨%d1, H1⟩, ⟨%d2, H2⟩⟩
    iapply (sound_kernel2_B c Set.univ _ _ _ _ _ _ _ (fun h => h0 ((hcond2_1 t).mp h)) ((hcond2_2 t).mpr h0) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Cert.Kernel.Hand

end
-- ==== Proof.KB.R2o.lean ====
/-
  The body obligation of region 2 (the blocked matrix product) at every grid point, from the body's triple at a
  generic point: the output window is idle nowhere (one of the body's two conditionals stores into it at every
  point), so every point leaves its staging buffer at the stated contents.
-/
import proofs.«173687_j21423296872678_2_alg».proof.Proof.KB.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- The body obligation, at every point: the output window is idle nowhere, so every point leaves it at the stated
    contents. -/
theorem body_obligation2 (c : Dev nD) : BodyObligation (dat2 (F := F) V c) (defs₀ (F := F)) Variants.none () Set.univ := fun t => by
  rw [bigSep_W2, bigSep_W2]
  rw [show cfg2.idle 2 (cfg2.grid.coords t) = false from live2_2 _]
  exact sound_body2 V c t

end Cert.Kernel.Hand

end
-- ==== Proof.KB.Run.lean ====
/-
  The run of the whole program: @main is three kernel regions in a row, with no host operation between them. The
  contents of the TensorCore's unscoped buffers are followed from the launch (`W0`) through the three regions
  (`W1`, `W2`, `W3`): a region changes only its output window's array, which ends holding what the region's
  write-backs leave. Each region is a segment of @main over the thread state "every unscoped buffer at the boundary's
  contents, the generator register at some state, nothing owed"; the launch theorem for a list of segments then
  says that every weakly fair execution terminates with every unscoped buffer at `W3`. Read at the two argument
  arrays, which no region writes, that is the frame claim; read at the result array it is what the third region's
  write-backs leave.
-/
import proofs.«173687_j21423296872678_2_alg».proof.Proof.KB.R0
import proofs.«173687_j21423296872678_2_alg».proof.Proof.KB.R1
import proofs.«173687_j21423296872678_2_alg».proof.Proof.KB.R2o

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (an input as entered, the output with each
    written-back block in place), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, the output with each
    written-back block in place), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (an input as entered, the output with each
    written-back block in place), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### The arguments end as launched: a region reads an argument through an input window or does not touch it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- What each region is entered with at the arrays the next regions read. -/
theorem V1_main_arg0 (c : Dev nD) : V1 m ρ c main_arg0 = m ((c : Thread nD τ).loc main_arg0) :=
  (W1_of_ne m ρ c main_arg0 (by decide)).trans rfl
theorem V2_main_v0 (c : Dev nD) : V2 m ρ c main_v0 = (dat0 (V0 m ρ) c).arrAt 1 cfg0.N :=
  (W2_of_ne m ρ c main_v0 (by decide)).trans (W1_arr m ρ c 1)
theorem V2_main_v1 (c : Dev nD) : V2 m ρ c main_v1 = (dat1 (V1 m ρ) c).arrAt 1 cfg1.N :=
  W2_arr m ρ c 1
theorem W3_main_v2 (c : Dev nD) : W3 m ρ c (Proc.devRef .tc main_v2) = (dat2 (V2 m ρ) c).arrAt 2 cfg2.N :=
  W3_arr m ρ c 2

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment of @main: entered with every unscoped buffer at `W0`, left with them at `W1`. Its
    arrays are split out of the unscoped buffers at entry and put back, at what the write-backs leave, at exit; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W1`, left with them at `W2`. Its
    arrays are split out of the unscoped buffers at entry and put back, at what the write-backs leave, at exit; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at `W2`, left with them at `W3`. Its
    arrays are split out of the unscoped buffers at entry and put back, at what the write-backs leave, at exit; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, at any float instance: every weakly fair execution terminates, nothing faulting, with the two
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

/-- The same run read also at the result array: it ends holding what the third region's write-backs leave. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.Kernel.Hand

end
-- ==== Proof.KI.R0.lean ====
/-
  Region 0 of the program's three kernel regions (the ternary quantization of the weight, 8 row blocks of 512 rows), at a PARAMETER `V`: the contents of the
  TensorCore's buffers when the region is entered. The body loads the whole input block, computes one pointwise
  payload of it and stores the result over the whole output block; so after the body the output's staging buffer
  holds that payload of the input block, whatever it held before, and the input's buffer is untouched. Stated here:
  the block an input window shows at a grid point (`iblk0`), what the body leaves (`out0_1`), the body's triple,
  the pipeline's proof data (`dat0`) and the body obligation at every grid point.
-/
import proofs.«173687_j21423296872678_2_alg».proof.Proof.Gen.KernelIdeal.Launch
import proofs.«173687_j21423296872678_2_alg».proof.Proof.Gen.KernelIdeal.Skeleton
import proofs.«173687_j21423296872678_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, its
    blocks tile the array, it is never idle), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole block. -/
abbrev r0_0 : Rect S512x4096 := Rect.unit (s := S512x4096) ![0, 0] S512x4096.size inb_S512x4096_S512x4096_0_0

/-- The output's staging buffer after the body: the payload of the input block, stored over the whole block. -/
def out0_1 (x0 : Vec F S512x4096 .f32) : Vec F S512x4096 .bf16 :=
  View.canon [⟨r0_0, k0_pay1 (View.ld x0 r0_0)⟩]

/-- The one store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers, the input's at contents `x0` and the output's at anything, runs to the
    continuation with the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the region finds them; after the body at point `t` the
    input's buffer at its block and the output's at the payload of that block; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program's three kernel regions (the change of format of x, 16 row blocks of 512 rows), at a PARAMETER `V`: the contents of the
  TensorCore's buffers when the region is entered. The body loads the whole input block, computes one pointwise
  payload of it and stores the result over the whole output block; so after the body the output's staging buffer
  holds that payload of the input block, whatever it held before, and the input's buffer is untouched. Stated here:
  the block an input window shows at a grid point (`iblk1`), what the body leaves (`out1_1`), the body's triple,
  the pipeline's proof data (`dat1`) and the body obligation at every grid point.
-/
import proofs.«173687_j21423296872678_2_alg».proof.Proof.Gen.KernelIdeal.Launch
import proofs.«173687_j21423296872678_2_alg».proof.Proof.Gen.KernelIdeal.Skeleton
import proofs.«173687_j21423296872678_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point, its
    blocks tile the array, it is never idle), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole block. -/
abbrev r1_0 : Rect S512x4096 := Rect.unit (s := S512x4096) ![0, 0] S512x4096.size inb_S512x4096_S512x4096_0_0

/-- The output's staging buffer after the body: the payload of the input block, stored over the whole block. -/
def out1_1 (x0 : Vec F S512x4096 .f32) : Vec F S512x4096 .bf16 :=
  View.canon [⟨r1_0, k1_pay1 (View.ld x0 r1_0)⟩]

/-- The one store covers the block. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The body on whole staging buffers, the input's at contents `x0` and the output's at anything, runs to the
    continuation with the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` the
    input's buffer at its block and the output's at the payload of that block; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the program's three kernel regions (the blocked matrix product), at a PARAMETER `V`: the contents of
  the TensorCore's buffers when the region is entered. The grid is 4 × 4 × 4, the innermost axis running over the
  four blocks of the contracted axis; the output block of a grid point does not depend on that axis, so its staging
  buffer is carried through the four points of a run and written back at the last. At the first point of a run
  (innermost coordinate 0) the body stores the product of the two input blocks over the whole output block; at the
  three later points it loads the output block, adds the product of the point's input blocks, and stores the sum back.
  Stated here: which points are first points (`hcond2_1`, `hcond2_2`), the body's triple in each of the two cases,
  what the output's buffer holds after each point by recursion on the point (`outsAt2`), the pipeline's proof data
  (`dat2`) and the body obligation at every grid point.
-/
import proofs.«173687_j21423296872678_2_alg».proof.Proof.Gen.KernelIdeal.Launch
import proofs.«173687_j21423296872678_2_alg».proof.Proof.Gen.KernelIdeal.Skeleton
import proofs.«173687_j21423296872678_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points begin a run of the contracted axis -/

/-- The first conditional's condition holds exactly at the points whose innermost coordinate is 0. -/
theorem hcond2_1 : ∀ t : Fin cfg2.N, k2_cond1 (grid2.coords t) = 1#1 ↔ t.val % 4 = 0 :=
  (by decide +kernel : ∀ t : Fin grid2.N, k2_cond1 (grid2.coords t) = 1#1 ↔ t.val % 4 = 0)
/-- The second conditional's condition holds exactly at the other points. -/
theorem hcond2_2 : ∀ t : Fin cfg2.N, k2_cond2 (grid2.coords t) = 1#1 ↔ ¬ t.val % 4 = 0 :=
  (by decide +kernel : ∀ t : Fin grid2.N, k2_cond2 (grid2.coords t) = 1#1 ↔ ¬ t.val % 4 = 0)
/-- One of the two conditions holds at every setting of the coordinates: the body stores into the output block at
    every point, so the output window is idle nowhere. -/
theorem live2_2 : ∀ i : grid2.Coords, cfg2.idle 2 i = false :=
  (by decide +kernel : ∀ i : grid2.Coords, idle2 2 i = false)

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (unfetched, the
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: each whole block. -/
abbrev r2_0 : Rect S2048x1024 := Rect.unit (s := S2048x1024) ![0, 0] S2048x1024.size inb_S2048x1024_S2048x1024_0_0
abbrev r2_1 : Rect S1024x1024 := Rect.unit (s := S1024x1024) ![0, 0] S1024x1024.size inb_S1024x1024_S1024x1024_0_0

/-- The output's staging buffer after the body at a first point: the product of the two input blocks. -/
def out2_A (x0 : Vec F S2048x1024 .bf16) (x1 : Vec F S1024x1024 .bf16) : Vec F S2048x1024 .f32 :=
  View.canon [⟨r2_0, k2_pay1 (View.ld x0 r2_0) (View.ld x1 r2_1)⟩]
/-- The output's staging buffer after the body at a later point: what it held, plus the product of the two input blocks. -/
def out2_B (x0 : Vec F S2048x1024 .bf16) (x1 : Vec F S1024x1024 .bf16) (xo : Vec F S2048x1024 .f32) : Vec F S2048x1024 .f32 :=
  View.canon [⟨r2_0, k2_pay2 (View.ld x0 r2_0) (View.ld x1 r2_1) (View.ld xo r2_0)⟩]

/-- The one store covers the block. -/
theorem cover2_2 (p0 : Vec F S2048x1024 .f32) (y : S2048x1024.Idx) :
    ∃ pc ∈ ([⟨r2_0, p0⟩] : List (View.Piece (Elt F) S2048x1024 .f32)), y ∈ pc.1.set :=
  View.cover_of_tiled [⟨r2_0, p0⟩] S2048x1024.size (by rfl) y

set_option maxHeartbeats 1000000 in
/-- The body at a first point, on whole staging buffers, the inputs' at contents `x0`, `x1` and the output's at
    anything: it runs to the continuation with the inputs' as they were and the output's at `out2_A x0 x1`. -/
theorem sound_kernel2_A (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole)
    (hc1 : k2_cond1 i = 1#1) (hc2 : ¬ k2_cond2 i = 1#1)
    (x0 : Vec F S2048x1024 .bf16) (x1 : Vec F S1024x1024 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_A x0 x1)) -∗ K ⟨⟩))
      ⊢ wp frame (wpE (defs₀ (F := F)) Variants.none c none) E (cc2__matmul_kernel i arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

set_option maxHeartbeats 1000000 in
/-- The body at a later point, the output's staging buffer at contents `xo`: it runs to the continuation with the
    inputs' as they were and the output's at `out2_B x0 x1 xo`. -/
theorem sound_kernel2_B (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole)
    (hc1 : ¬ k2_cond1 i = 1#1) (hc2 : k2_cond2 i = 1#1)
    (x0 : Vec F S2048x1024 .bf16) (x1 : Vec F S1024x1024 .bf16) (xo : Vec F S2048x1024 .f32) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1 ∗ owns (c : Thread nD τ) arg5 fullShare (out2_B x0 x1 xo)) -∗ K ⟨⟩))
      ⊢ wp frame (wpE (defs₀ (F := F)) Variants.none c none) E (cc2__matmul_kernel i arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## What the output's buffer holds after each point -/

/-- THE ACCUMULATION. What the output's staging buffer holds after the body at position `n`: at a first point the
    product of the point's input blocks; at a later point that product added to what the point before left (the
    buffer is not written back between the points of a run). -/
def outsAt2 (c : Dev nD) : (n : ℕ) → n < cfg2.N → Vec F S2048x1024 .f32
  | 0, hn => out2_A (iblk2 V c 0 ⟨0, hn⟩) (iblk2 V c 1 ⟨0, hn⟩)
  | n + 1, hn =>
    if (n + 1) % 4 = 0 then
      out2_A (iblk2 V c 0 ⟨n + 1, hn⟩) (iblk2 V c 1 ⟨n + 1, hn⟩)
    else
      out2_B (iblk2 V c 0 ⟨n + 1, hn⟩) (iblk2 V c 1 ⟨n + 1, hn⟩) (outsAt2 c n (Nat.lt_of_succ_lt hn))

theorem outsAt2_A (c : Dev nD) (t : Fin cfg2.N) (h0 : t.val % 4 = 0) :
    outsAt2 V c t.val t.isLt = out2_A (iblk2 V c 0 t) (iblk2 V c 1 t) := by
  obtain ⟨n, hn⟩ := t
  cases n with
  | zero => exact rfl
  | succ n => exact (if_pos h0).trans rfl

theorem outsAt2_B (c : Dev nD) (t : Fin cfg2.N) (h0 : ¬t.val % 4 = 0) :
    outsAt2 V c t.val t.isLt = out2_B (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data on core `c`: the arrays as the region finds them; after the body at point `t` each input's
    buffer at its block and the output's at `outsAt2`; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point of a run the output's current staging buffer holds what the body left at the point before: the
    point is not the first of the grid, the buffer was not written back between, the window is live and uncut. -/
theorem before2_2_B (c : Dev nD) (t : Fin cfg2.N) (h0 : ¬t.val % 4 = 0) (d) :
    (dat2 V c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    live2_2 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body at any point: the inputs' buffers hold their blocks; the point is a first point of a run or a later one,
    and at a later one the output's buffer holds what the point before left; so the case's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val % 4 = 0
  · rw [outsAt2_A V c t h0]
    iintro ⟨HΦ, Ho, ⟨%d0, H0⟩, ⟨%d1, H1⟩, ⟨%d2, H2⟩⟩
    iapply (sound_kernel2_A c Set.univ _ _ _ _ _ _ _ ((hcond2_1 t).mpr h0) (fun h => (hcond2_2 t).mp h h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt2_B V c t h0]
    simp only [before2_2_B V c t h0]
    iintro ⟨HΦ, Ho, ⟨%d0, H0⟩, ⟨%d1, H1⟩, ⟨%d2, H2⟩⟩
    iapply (sound_kernel2_B c Set.univ _ _ _ _ _ _ _ (fun h => h0 ((hcond2_1 t).mp h)) ((hcond2_2 t).mpr h0) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Cert.KernelIdeal.Hand

end
-- ==== Proof.KI.R2o.lean ====
/-
  The body obligation of region 2 (the blocked matrix product) at every grid point, from the body's triple at a
  generic point: the output window is idle nowhere (one of the body's two conditionals stores into it at every
  point), so every point leaves its staging buffer at the stated contents.
-/
import proofs.«173687_j21423296872678_2_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body obligation, at every point: the output window is idle nowhere, so every point leaves it at the stated
    contents. -/
theorem body_obligation2 (c : Dev nD) : BodyObligation (dat2 (F := F) V c) (defs₀ (F := F)) Variants.none () Set.univ := fun t => by
  rw [bigSep_W2, bigSep_W2]
  rw [show cfg2.idle 2 (cfg2.grid.coords t) = false from live2_2 _]
  exact sound_body2 V c t

end Cert.KernelIdeal.Hand

end
-- ==== Proof.KI.Run.lean ====
/-
  The run of the whole program: @main is three kernel regions in a row, with no host operation between them. The
  contents of the TensorCore's unscoped buffers are followed from the launch (`W0`) through the three regions
  (`W1`, `W2`, `W3`): a region changes only its output window's array, which ends holding what the region's
  write-backs leave. Each region is a segment of @main over the thread state "every unscoped buffer at the boundary's
  contents, the generator register at some state, nothing owed"; the launch theorem for a list of segments then
  says that every weakly fair execution terminates with every unscoped buffer at `W3`. Read at the two argument
  arrays, which no region writes, that is the frame claim; read at the result array it is what the third region's
  write-backs leave.
-/
import proofs.«173687_j21423296872678_2_alg».proof.Proof.KI.R0
import proofs.«173687_j21423296872678_2_alg».proof.Proof.KI.R1
import proofs.«173687_j21423296872678_2_alg».proof.Proof.KI.R2o

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (an input as entered, the output with each
    written-back block in place), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, the output with each
    written-back block in place), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (an input as entered, the output with each
    written-back block in place), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### The arguments end as launched: a region reads an argument through an input window or does not touch it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- What each region is entered with at the arrays the next regions read. -/
theorem V1_main_arg0 (c : Dev nD) : V1 m ρ c main_arg0 = m ((c : Thread nD τ).loc main_arg0) :=
  (W1_of_ne m ρ c main_arg0 (by decide)).trans rfl
theorem V2_main_v0 (c : Dev nD) : V2 m ρ c main_v0 = (dat0 (V0 m ρ) c).arrAt 1 cfg0.N :=
  (W2_of_ne m ρ c main_v0 (by decide)).trans (W1_arr m ρ c 1)
theorem V2_main_v1 (c : Dev nD) : V2 m ρ c main_v1 = (dat1 (V1 m ρ) c).arrAt 1 cfg1.N :=
  W2_arr m ρ c 1
theorem W3_main_v2 (c : Dev nD) : W3 m ρ c (Proc.devRef .tc main_v2) = (dat2 (V2 m ρ) c).arrAt 2 cfg2.N :=
  W3_arr m ρ c 2

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment of @main: entered with every unscoped buffer at `W0`, left with them at `W1`. Its
    arrays are split out of the unscoped buffers at entry and put back, at what the write-backs leave, at exit; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W1`, left with them at `W2`. Its
    arrays are split out of the unscoped buffers at entry and put back, at what the write-backs leave, at exit; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at `W2`, left with them at `W3`. Its
    arrays are split out of the unscoped buffers at entry and put back, at what the write-backs leave, at exit; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, at any float instance: every weakly fair execution terminates, nothing faulting, with the two
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

/-- The same run read also at the result array: it ends holding what the third region's write-backs leave. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.TernSpec.lean ====
/- The specification of a ternary-weight matrix product, at the ideal values (extended reals).

   A weight `w` is quantized to `q w = sign w · [|w| > 1/2]`, a value in {-1, 0, 1}: the sign of `w`
   (by the order of the extended reals: `-1` below zero, `0` at zero, `1` above it, the infinities
   included) times the indicator, as the real `0` or `1`, of `|w| > 1/2`, where `|w| = max w (-w)` and
   `1/2` is the value of the f32 word `0x3F000000`.

   The result is `Y x w` with `Y x w (m, n) = ∑ k < 4096, x (m, k) · q (w (n, k))`: every row of the
   activations against every row of the quantized weights. No program is mentioned here. -/
import Idealize.ShloMosaic.PureOps.Ideal
import Idealize.ShloMosaic.PureOps.Ideal.Laws
import Idealize.ShloMosaic.Lib.ValueIdx

noncomputable section

namespace Cert.Tern

open Idealize.ShloMosaic

/-- One weight's ternary value: `sign w` times the `0`/`1` value of the comparison `|w| > 1/2`, written
    with the ideal instance's operations (sign, absolute value, ordered greater-than, the unsigned
    reading of the comparison's bit, product). -/
def q (w : EReal) : EReal :=
  FloatOps.mulf (F := Ideal) (φ := .f32) (FloatOps.hostUnary (F := Ideal) (φ := .f32) .sign w)
    (FloatOps.uitofp (F := Ideal) .f32
      (FloatOps.cmpf (F := Ideal) (φ := .f32) .ogt (FloatOps.hostAbsf (F := Ideal) (φ := .f32) w)
        (FloatOps.ofBits (F := Ideal) .f32 0x3F000000#32)))

/-- The same value in the order's terms: the sign times the bit of `1/2 < max w (-w)` read as a real. -/
theorem q_eq (w : EReal) :
    q w = Ideal.sign w
      * (((Ideal.cmp .ogt (max w (-w)) (Ideal.ofBits .f32 0x3F000000#32)).toNat : ℝ) : EReal) := rfl

/-- The product of the activations `x` (8192 × 4096) with the transposed quantized weights
    (`w` is 4096 × 4096): at `(m, n)` the sum over `k` of `x (m, k) · q (w (n, k))`. -/
def Y (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ValueIdx.ix2 (⟨(i 0).val, (i 0).isLt⟩ : Fin 8192) k)
    * q (w (ValueIdx.ix2 (⟨(i 1).val, (i 1).isLt⟩ : Fin 4096) k))

/-- `Y` at an index given by its two coordinates. -/
theorem Y_apply (x : (⟨2, ![8192, 4096]⟩ : Shape).Idx → EReal) (w : (⟨2, ![4096, 4096]⟩ : Shape).Idx → EReal)
    (m : Fin 8192) (n : Fin 4096) :
    Y x w (ValueIdx.ix2 m n) = ∑ k : Fin 4096, x (ValueIdx.ix2 m k) * q (w (ValueIdx.ix2 n k)) := rfl

end Cert.Tern

end
-- ==== Proof.TernPay.lean ====
/- The kernel's pure values at an index, at the ideal values (extended reals).

   Quantization: the kernel writes the sign as `select (|w| > 0) (select (w < 0) (-1) 1) w` and the
   indicator of `|w| > 1/2` as the signed reading of the comparison's bit zero-extended to 32 bits. The
   first is the order's sign at every extended real (below zero `-1`, above zero `1`, and at zero the
   select returns `w = 0` itself); the second is the unsigned reading of the bit, because a one-bit
   word zero-extended to 32 bits is `0` or `1` whichever way it is read. The narrowing to sixteen bits
   changes nothing at the ideal values. So the quantized weight is `q w`.

   Product: a block product with contraction over the second axis of both operands, into a zero
   accumulator, is at `(p, r)` the sum over `k < 1024` of `a (p, k) · b (r, k)`; the accumulating step
   adds that block product to the running sum. -/
import proofs.«173687_j21423296872678_2_alg».proof.Proof.TernSpec
import proofs.«173687_j21423296872678_2_alg».proof.Proof.Gen.KernelIdeal.Skeleton
import Idealize.ShloMosaic.Lib.Pipeline.Value

noncomputable section

namespace Cert.Tern

open Idealize.ShloMosaic Cert.KernelIdeal Cert.KernelIdeal.Gen

/-- A one-bit word zero-extended to 32 bits reads the same signed and unsigned. -/
theorem toInt_setWidth_bit (b : BitVec 1) : (b.setWidth 32).toInt = (b.toNat : Int) := by
  rcases BitVec.eq_zero_or_eq_one b with h | h <;> subst h <;> decide

/-- So the signed conversion of the zero-extended bit is the unsigned conversion of the bit. -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit, Int.cast_natCast]

/-- The kernel's spelling of the quantized weight, at one element, is `q` of it: the nested select is the
    order's sign (at every extended real, the infinities and zero included), and the signed reading of the
    zero-extended comparison bit is its unsigned reading. -/
theorem kernel_q (w : Ideal .f32) :
    (Scalar.select (FloatOps.cmpf (F := Ideal) .ogt (FloatOps.absf w) (Scalar.ofBits .f32 0x00000000#32))
        (Scalar.select (FloatOps.cmpf (F := Ideal) .olt w (Scalar.ofBits .f32 0x00000000#32)) (Scalar.ofBits .f32 0xBF800000#32)
          (Scalar.ofBits .f32 0x3F800000#32)) w)
      * FloatOps.sitofp (F := Ideal) .f32
          ((FloatOps.cmpf (F := Ideal) .ogt (FloatOps.absf w) (Scalar.ofBits (F := Ideal) .f32 0x3F000000#32)).setWidth 32)
      = q w := by
  rw [Ideal.jnp_sign_eq_sign_f32, sitofp_extui_bit]
  rfl

/-- The quantization kernel's stored value at an index is `q` of the weight there. -/
theorem pay0_apply (v0 : Vec Ideal S512x4096 .f32) (j : S512x4096.Idx) : k0_pay1 (F := Ideal) v0 j = q (v0 j) := by
  unfold k0_pay1
  exact kernel_q (v0 j)

/-- The cast kernel's stored value at an index is the activation there. -/
theorem pay1_apply (v0 : Vec Ideal S512x4096 .f32) (j : S512x4096.Idx) : k1_pay1 (F := Ideal) v0 j = v0 j := rfl

/-! ## The block product -/

/-- The left operand's row coordinate at an output index is the output's row. -/
theorem lhs_k2_0 (i : S2048x1024.Idx) (c : dot_S2048x1024_S1024x1024_S2048x1024_1_1_0_0_n_n.contr.Idx) :
    (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- The left operand's column coordinate is the contraction position. -/
theorem lhs_k2_1 (i : S2048x1024.Idx) (c : dot_S2048x1024_S1024x1024_S2048x1024_1_1_0_0_n_n.contr.Idx) :
    (dot_S2048x1024_S1024x1024_S2048x1024_1_1_0_0_n_n.lhsIdx i c 1).val = (c ⟨0, by decide⟩).val :=
  dot_S2048x1024_S1024x1024_S2048x1024_1_1_0_0_n_n.lhsIdx_val_of_single rfl i c
/-- The right operand's row coordinate at an output index is the output's column. -/
theorem rhs_k2_0 (i : S2048x1024.Idx) (c : dot_S2048x1024_S1024x1024_S2048x1024_1_1_0_0_n_n.contr.Idx) :
    (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- The right operand's column coordinate is the contraction position. -/
theorem rhs_k2_1 (i : S2048x1024.Idx) (c : dot_S2048x1024_S1024x1024_S2048x1024_1_1_0_0_n_n.contr.Idx) :
    (dot_S2048x1024_S1024x1024_S2048x1024_1_1_0_0_n_n.rhsIdx i c 1).val = (c ⟨0, by decide⟩).val :=
  dot_S2048x1024_S1024x1024_S2048x1024_1_1_0_0_n_n.rhsIdx_val_of_single rfl i c

/-- The block product at `(p, r)`: the sum over `k < 1024` of `a (p, k) · b (r, k)`. -/
theorem pay2_1_apply (a : Vec Ideal S2048x1024 .bf16) (b : Vec Ideal S1024x1024 .bf16) (p : Fin 2048) (r : Fin 1024) :
    k2_pay1 (F := Ideal) a b (ValueIdx.ix2 p r) = ∑ kk : Fin 1024, a (ValueIdx.ix2 p kk) * b (ValueIdx.ix2 r kk) := by
  unfold k2_pay1
  show FloatOps.matmul (F := Ideal) dot_S2048x1024_S1024x1024_S2048x1024_1_1_0_0_n_n none (φ₁ := .bf16) (φ₂ := .bf16)
      (shapeCast S2048x1024 a shapeCasts_S2048x1024_S2048x1024) (shapeCast S1024x1024 b shapeCasts_S1024x1024_S1024x1024)
      (constant S2048x1024 .f32 0x00000000#32) (ValueIdx.ix2 p r) = _
  rw [shapeCast_self, shapeCast_self]
  refine (Ideal.matmul_constant_zero_apply (φ₁ := .bf16) (φ₂ := .bf16) dot_S2048x1024_S1024x1024_S2048x1024_1_1_0_0_n_n none a b (ValueIdx.ix2 p r)).trans ?_
  rw [← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ValueIdx.ix2 p r) ((ValueIdx.contrEquiv1 dot_S2048x1024_S1024x1024_S2048x1024_1_1_0_0_n_n 1024 rfl rfl).symm k) = ValueIdx.ix2 p k := funext fun a => Fin.ext (by
    match a with
    | ⟨0, _⟩ => exact lhs_k2_0 _ _
    | ⟨1, _⟩ => exact (lhs_k2_1 _ _).trans hk)
  have er : dot_S2048x1024_S1024x1024_S2048x1024_1_1_0_0_n_n.rhsIdx (ValueIdx.ix2 p r) ((ValueIdx.contrEquiv1 dot_S2048x1024_S1024x1024_S2048x1024_1_1_0_0_n_n 1024 rfl rfl).symm k) = ValueIdx.ix2 r k := funext fun a => Fin.ext (by
    match a with
    | ⟨0, _⟩ => exact rhs_k2_0 _ _
    | ⟨1, _⟩ => exact (rhs_k2_1 _ _).trans hk)
  rw [el, er]

/-- The accumulating step at an index: the running sum there plus the block product there. -/
theorem pay2_2_apply (a : Vec Ideal S2048x1024 .bf16) (b : Vec Ideal S1024x1024 .bf16) (acc : Vec Ideal S2048x1024 .f32)
    (j : S2048x1024.Idx) : k2_pay2 (F := Ideal) a b acc j = acc j + k2_pay1 (F := Ideal) a b j := by
  unfold k2_pay2
  show shapeCast S2048x1024 acc shapeCasts_S2048x1024_S2048x1024 j + k2_pay1 (F := Ideal) a b j = _
  rw [shapeCast_self]

end Cert.Tern

end
-- ==== Proof.KI.ValA.lean ====
/-
  What the first two kernel regions leave in their output arrays, at the ideal instance and at a parameter `V` (the
  contents of the buffers when the region is entered). Both bodies are pointwise over row blocks of 512 rows that tile
  the array, the input and the output window showing the same block at every grid point; so the output array ends
  holding, index by index, the body's pointwise function of the input array: the ternary value of each weight for
  region 0, the entry itself for region 1 (a change of float format is the identity on the extended reals).
-/
import proofs.«173687_j21423296872678_2_alg».proof.Proof.KI.R0
import proofs.«173687_j21423296872678_2_alg».proof.Proof.KI.R1
import proofs.«173687_j21423296872678_2_alg».proof.Proof.TernPay
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the ternary quantization of the weight -/

/-- The input window and the output window show the same block at every grid point. -/
theorem idx_facts0 : ∀ t : Fin cfg0.N, win0_0.index t (0 : Fin 2) = win0_1.index t (0 : Fin 2) ∧ win0_0.index t (1 : Fin 2) = win0_1.index t (1 : Fin 2) :=
  (by decide +kernel : ∀ t : Fin grid0.N, win0_0.index t (0 : Fin 2) = win0_1.index t (0 : Fin 2) ∧ win0_0.index t (1 : Fin 2) = win0_1.index t (1 : Fin 2))
/-- Every row block is some grid point's. -/
theorem idx_onto0 : ∀ q0 : Fin 8, ∃ t : Fin cfg0.N, win0_1.index t = ![q0.val, 0] :=
  (by decide +kernel : ∀ q0 : Fin 8, ∃ t : Fin grid0.N, win0_1.index t = ![q0.val, 0])

/-- What the region's output array ends holding, as one function of the array the region reads. -/
abbrev Q0 (w : S4096x4096.Idx → Elt Ideal .f32) : S4096x4096.Idx → Elt Ideal .bf16 := fun i => Cert.Tern.q (w i)

/-- What grid point `t` writes back is block `t` of that function of the input array as the region finds it. -/
theorem flushed0_eq (c : Dev nD) (t : Fin cfg0.N) :
    (dat0 V c).flushed 1 t = ((cfg0.win 1).blk t).view.read (Elt Ideal) (Q0 (V c main_arg1)) := by
  show (cfg0.win 1).cut (grid0.coords t) ((dat0 V c).after 1 t) = _
  rw [after0_1]
  unfold out0_1
  rw [View.canon_unit_zero hz]
  simp only [View.ld_unit_zero (S := S512x4096) hz]
  obtain ⟨e0, e1⟩ := idx_facts0 t
  funext j
  refine (Cert.Tern.pay0_apply (iblk0 V c 0 t) j).trans ?_
  show Q0 (V c main_arg1) (((cfg0.win 0).blk t).view.emb j) = Q0 (V c main_arg1) (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the array is in point `t`'s block iff each coordinate is in the block's range on its axis. -/
theorem mem_blk0 (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The row blocks tile the array: row `r` is in the block of the point with block index `r / 512`. -/
theorem cover0 (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := idx_onto0 ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE ARRAY after the region: that function of the input array, everywhere. -/
theorem final0 (c : Dev nD) : (dat0 V c).arrAt 1 cfg0.N = Q0 (V c main_arg1) :=
  (dat0 V c).arrAt_eq_of_cover 1 (Q0 (V c main_arg1)) (fun t _ => flushed0_eq V c t) cover0

/-! ## Region 1: the change of format of x -/

/-- The input window and the output window show the same block at every grid point. -/
theorem idx_facts1 : ∀ t : Fin cfg1.N, win1_0.index t (0 : Fin 2) = win1_1.index t (0 : Fin 2) ∧ win1_0.index t (1 : Fin 2) = win1_1.index t (1 : Fin 2) :=
  (by decide +kernel : ∀ t : Fin grid1.N, win1_0.index t (0 : Fin 2) = win1_1.index t (0 : Fin 2) ∧ win1_0.index t (1 : Fin 2) = win1_1.index t (1 : Fin 2))
/-- Every row block is some grid point's. -/
theorem idx_onto1 : ∀ q0 : Fin 16, ∃ t : Fin cfg1.N, win1_1.index t = ![q0.val, 0] :=
  (by decide +kernel : ∀ q0 : Fin 16, ∃ t : Fin grid1.N, win1_1.index t = ![q0.val, 0])

/-- What the region's output array ends holding, as one function of the array the region reads. -/
abbrev Q1 (w : S8192x4096.Idx → Elt Ideal .f32) : S8192x4096.Idx → Elt Ideal .bf16 := fun i => w i

/-- What grid point `t` writes back is block `t` of that function of the input array as the region finds it. -/
theorem flushed1_eq (c : Dev nD) (t : Fin cfg1.N) :
    (dat1 V c).flushed 1 t = ((cfg1.win 1).blk t).view.read (Elt Ideal) (Q1 (V c main_arg0)) := by
  show (cfg1.win 1).cut (grid1.coords t) ((dat1 V c).after 1 t) = _
  rw [after1_1]
  unfold out1_1
  rw [View.canon_unit_zero hz]
  simp only [View.ld_unit_zero (S := S512x4096) hz]
  obtain ⟨e0, e1⟩ := idx_facts1 t
  funext j
  refine (Cert.Tern.pay1_apply (iblk1 V c 0 t) j).trans ?_
  show Q1 (V c main_arg0) (((cfg1.win 0).blk t).view.emb j) = Q1 (V c main_arg0) (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the array is in point `t`'s block iff each coordinate is in the block's range on its axis. -/
theorem mem_blk1 (t : Fin cfg1.N) (i : S8192x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- The row blocks tile the array: row `r` is in the block of the point with block index `r / 512`. -/
theorem cover1 (i : S8192x4096.Idx) : ∃ t : Fin cfg1.N, (cfg1.win 1).flush t = true ∧ i ∈ ((cfg1.win 1).blk t).view.set := by
  have hi0 : (i 0).val < 8192 := (i 0).isLt
  have hi1 : (i 1).val < 4096 := (i 1).isLt
  obtain ⟨t, ht⟩ := idx_onto1 ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- THE ARRAY after the region: that function of the input array, everywhere. -/
theorem final1 (c : Dev nD) : (dat1 V c).arrAt 1 cfg1.N = Q1 (V c main_arg0) :=
  (dat1 V c).arrAt_eq_of_cover 1 (Q1 (V c main_arg0)) (fun t _ => flushed1_eq V c t) cover1

end Cert.KernelIdeal.HandValue

end
-- ==== Proof.KI.Val2.lean ====
/-
  What the third kernel region (the blocked matrix product) leaves in its output array, at the ideal instance and at
  a parameter `V` (the contents of the buffers when the region is entered).

  The grid is 4 × 4 × 4, row-major, the innermost axis running over the four blocks of 1024 of the contracted axis.
  At position `n` the left window shows rows `2048·(n/16) …` and columns `1024·(n%4) …` of the left array, the right
  window rows `1024·((n/4)%4) …` and columns `1024·(n%4) …` of the right array, and the output window the block of rows
  `2048·(n/16) …` and columns `1024·((n/4)%4) …`, which does not move along a run of four positions. The invariant: after
  the body at position `n` the output's staging buffer holds, at `(p, r)`, the PARTIAL dot product over the first
  `1024·(n%4 + 1)` contraction positions of row `2048·(n/16) + p` of the left array with row `1024·((n/4)%4) + r` of the
  right array. At the first position of a run the body stores one block product (the partial sum over the first 1024
  positions); at a later position it adds the next block product to what the position before left, and a sum over
  `range (a + 1024)` is the sum over `range a` plus the sum of the next 1024 terms. Only the regrouping of a finite sum in
  a commutative monoid is used: no distributivity, no finiteness of the values. At the last position of a run the
  partial sum is the whole sum over 4096 positions, the block is written back, and the sixteen output blocks tile the
  array; so the array ends holding every row of the left array against every row of the right array.
-/
import proofs.«173687_j21423296872678_2_alg».proof.Proof.KI.R2
import proofs.«173687_j21423296872678_2_alg».proof.Proof.TernPay
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-! ## The grid -/

/-- The windows' block indices at position `t` of the row-major 4 × 4 × 4 grid, decided over the 64 positions. -/
theorem idx_facts2 : ∀ t : Fin cfg2.N, win2_0.index t (0 : Fin 2) = t.val / 16 ∧ win2_0.index t (1 : Fin 2) = t.val % 4
    ∧ win2_1.index t (0 : Fin 2) = (t.val / 4) % 4 ∧ win2_1.index t (1 : Fin 2) = t.val % 4
    ∧ win2_2.index t (0 : Fin 2) = t.val / 16 ∧ win2_2.index t (1 : Fin 2) = (t.val / 4) % 4 :=
  (by decide +kernel : ∀ t : Fin grid2.N, win2_0.index t (0 : Fin 2) = t.val / 16 ∧ win2_0.index t (1 : Fin 2) = t.val % 4
    ∧ win2_1.index t (0 : Fin 2) = (t.val / 4) % 4 ∧ win2_1.index t (1 : Fin 2) = t.val % 4
    ∧ win2_2.index t (0 : Fin 2) = t.val / 16 ∧ win2_2.index t (1 : Fin 2) = (t.val / 4) % 4)
/-- Every output block is the block of some LAST position of a run. -/
theorem idx_onto2 : ∀ (q0 q1 : Fin 4), ∃ t : Fin cfg2.N, t.val % 4 = 3 ∧ win2_2.index t = ![q0.val, q1.val] :=
  (by decide +kernel : ∀ (q0 q1 : Fin 4), ∃ t : Fin grid2.N, t.val % 4 = 3 ∧ win2_2.index t = ![q0.val, q1.val])

/-! ## Partial dot products -/

/-- A matrix extended by zero to all pairs of naturals. -/
def ext2 {a b : ℕ} (A : (⟨2, ![a, b]⟩ : Shape).Idx → EReal) (r k : ℕ) : EReal :=
  if h : r < a ∧ k < b then A (ix2 ⟨r, h.1⟩ ⟨k, h.2⟩) else 0

/-- The dot product of row `r` of `A` with row `s` of `B` over the first `n` positions. -/
def pdot {a b a' b' : ℕ} (A : (⟨2, ![a, b]⟩ : Shape).Idx → EReal) (B : (⟨2, ![a', b']⟩ : Shape).Idx → EReal) (r s n : ℕ) : EReal :=
  ∑ k ∈ Finset.range n, ext2 A r k * ext2 B s k

theorem pdot_zero {a b a' b' : ℕ} (A : (⟨2, ![a, b]⟩ : Shape).Idx → EReal) (B : (⟨2, ![a', b']⟩ : Shape).Idx → EReal) (r s : ℕ) :
    pdot A B r s (1024 * 0) = 0 := Finset.sum_range_zero _

/-- One more block of 1024 positions: the partial sum so far plus the sum of the next 1024 terms. -/
theorem pdot_step {a b a' b' : ℕ} (A : (⟨2, ![a, b]⟩ : Shape).Idx → EReal) (B : (⟨2, ![a', b']⟩ : Shape).Idx → EReal) (r s m : ℕ) :
    pdot A B r s (1024 * (m + 1))
      = pdot A B r s (1024 * m) + ∑ k ∈ Finset.range 1024, ext2 A r (1024 * m + k) * ext2 B s (1024 * m + k) := by
  rw [show 1024 * (m + 1) = 1024 * m + 1024 from Nat.mul_succ 1024 m]
  exact Finset.sum_range_add _ _ _

/-- What the region's output array ends holding, as one function of the two arrays the region reads: every row of
    the first against every row of the second. -/
abbrev P2 (A : S8192x4096.Idx → Elt Ideal .bf16) (B : S4096x4096.Idx → Elt Ideal .bf16) : S8192x4096.Idx → Elt Ideal .f32 :=
  fun i => ∑ k : Fin 4096, A (ix2 (⟨(i 0).val, (i 0).isLt⟩ : Fin 8192) k) * B (ix2 (⟨(i 1).val, (i 1).isLt⟩ : Fin 4096) k)

/-- Over all 4096 positions the partial dot product is the whole one. -/
theorem P2_eq_pdot (A : S8192x4096.Idx → Elt Ideal .bf16) (B : S4096x4096.Idx → Elt Ideal .bf16) (i : S8192x4096.Idx) (R S : ℕ)
    (hR : (i 0).val = R) (hS : (i 1).val = S) : P2 A B i = pdot A B R S 4096 := by
  subst hR hS
  unfold pdot
  rw [← Fin.sum_univ_eq_sum_range (fun k => ext2 A (i 0).val k * ext2 B (i 1).val k) 4096]
  refine Finset.sum_congr rfl fun k _ => ?_
  have h1 : (i 0).val < 8192 ∧ k.val < 4096 := ⟨(i 0).isLt, k.isLt⟩
  have h2 : (i 1).val < 4096 ∧ k.val < 4096 := ⟨(i 1).isLt, k.isLt⟩
  unfold ext2
  rw [dif_pos h1, dif_pos h2]

/-! ## The input blocks at explicit coordinates -/

/-- The left window's block at position `t`, at `(p, kk)`: the left array at row `2048·(t/16) + p`, column `1024·(t%4) + kk`. -/
theorem iblk2_0_apply (c : Dev nD) (t : Fin cfg2.N) (p : Fin 2048) (kk : Fin 1024) :
    iblk2 V c 0 t (ix2 p kk) = ext2 (a := 8192) (b := 4096) (V c main_v1) (2048 * (t.val / 16) + p.val) (1024 * (t.val % 4) + kk.val) := by
  obtain ⟨e0, e1, e2, e3, e4, e5⟩ := idx_facts2 t
  have hN : t.val < 64 := lt_of_lt_of_eq t.isLt (show cfg2.N = 64 from N_2)
  have hp : p.val < 2048 := p.isLt
  have hk : kk.val < 1024 := kk.isLt
  have hr : 2048 * (t.val / 16) + p.val < 8192 ∧ 1024 * (t.val % 4) + kk.val < 4096 := by omega
  unfold ext2
  rw [dif_pos hr]
  show V c main_v1 (((cfg2.win 0).blk t).view.emb (ix2 p kk)) = _
  refine congrArg (V c main_v1) ?_
  funext a; apply Fin.ext
  match a with
  | ⟨0, _⟩ => show win2_0.index t (0 : Fin 2) * 2048 + 1 * p.val = 2048 * (t.val / 16) + p.val; omega
  | ⟨1, _⟩ => show win2_0.index t (1 : Fin 2) * 1024 + 1 * kk.val = 1024 * (t.val % 4) + kk.val; omega

/-- The right window's block at position `t`, at `(r, kk)`: the right array at row `1024·((t/4)%4) + r`, column `1024·(t%4) + kk`. -/
theorem iblk2_1_apply (c : Dev nD) (t : Fin cfg2.N) (r : Fin 1024) (kk : Fin 1024) :
    iblk2 V c 1 t (ix2 r kk) = ext2 (a := 4096) (b := 4096) (V c main_v0) (1024 * ((t.val / 4) % 4) + r.val) (1024 * (t.val % 4) + kk.val) := by
  obtain ⟨e0, e1, e2, e3, e4, e5⟩ := idx_facts2 t
  have hN : t.val < 64 := lt_of_lt_of_eq t.isLt (show cfg2.N = 64 from N_2)
  have hp : r.val < 1024 := r.isLt
  have hk : kk.val < 1024 := kk.isLt
  have hr : 1024 * ((t.val / 4) % 4) + r.val < 4096 ∧ 1024 * (t.val % 4) + kk.val < 4096 := by omega
  unfold ext2
  rw [dif_pos hr]
  show V c main_v0 (((cfg2.win 1).blk t).view.emb (ix2 r kk)) = _
  refine congrArg (V c main_v0) ?_
  funext a; apply Fin.ext
  match a with
  | ⟨0, _⟩ => show win2_1.index t (0 : Fin 2) * 1024 + 1 * r.val = 1024 * ((t.val / 4) % 4) + r.val; omega
  | ⟨1, _⟩ => show win2_1.index t (1 : Fin 2) * 1024 + 1 * kk.val = 1024 * (t.val % 4) + kk.val; omega

/-- The product of the two input blocks at position `t`, at `(p, r)`: the next 1024 terms of the dot product of the two rows. -/
theorem blockprod2 (c : Dev nD) (t : Fin cfg2.N) (p : Fin 2048) (r : Fin 1024) (R S m : ℕ)
    (hR : 2048 * (t.val / 16) + p.val = R) (hS : 1024 * ((t.val / 4) % 4) + r.val = S) (hm : t.val % 4 = m)
    (x0 : Vec Ideal S2048x1024 .bf16) (x1 : Vec Ideal S1024x1024 .bf16) (h0 : x0 = iblk2 V c 0 t) (h1 : x1 = iblk2 V c 1 t) :
    ∑ kk : Fin 1024, x0 (ix2 p kk) * x1 (ix2 r kk)
      = ∑ k ∈ Finset.range 1024, ext2 (a := 8192) (b := 4096) (V c main_v1) R (1024 * m + k) * ext2 (a := 4096) (b := 4096) (V c main_v0) S (1024 * m + k) := by
  subst hR hS hm
  rw [← Fin.sum_univ_eq_sum_range (fun k => ext2 (a := 8192) (b := 4096) (V c main_v1) (2048 * (t.val / 16) + p.val) (1024 * (t.val % 4) + k)
    * ext2 (a := 4096) (b := 4096) (V c main_v0) (1024 * ((t.val / 4) % 4) + r.val) (1024 * (t.val % 4) + k)) 1024]
  refine Finset.sum_congr rfl fun kk _ => ?_
  rw [h0, h1, iblk2_0_apply V c t p kk, iblk2_1_apply V c t r kk]

/-! ## The body's two cases at an index -/

/-- At a first position: the block product. -/
theorem out2_A_apply (x0 : Vec Ideal S2048x1024 .bf16) (x1 : Vec Ideal S1024x1024 .bf16) (p : Fin 2048) (r : Fin 1024) :
    out2_A x0 x1 (ix2 p r) = ∑ kk : Fin 1024, x0 (ix2 p kk) * x1 (ix2 r kk) := by
  unfold out2_A
  rw [View.canon_unit_zero hz2]
  simp only [View.ld_unit_zero (S := S2048x1024) hz2, View.ld_unit_zero (S := S1024x1024) hz2]
  exact Cert.Tern.pay2_1_apply x0 x1 p r

/-- At a later position: what the buffer held plus the block product. -/
theorem out2_B_apply (x0 : Vec Ideal S2048x1024 .bf16) (x1 : Vec Ideal S1024x1024 .bf16) (xo : Vec Ideal S2048x1024 .f32)
    (p : Fin 2048) (r : Fin 1024) :
    out2_B x0 x1 xo (ix2 p r) = xo (ix2 p r) + ∑ kk : Fin 1024, x0 (ix2 p kk) * x1 (ix2 r kk) := by
  unfold out2_B
  rw [View.canon_unit_zero hz2]
  simp only [View.ld_unit_zero (S := S2048x1024) hz2, View.ld_unit_zero (S := S1024x1024) hz2]
  refine (Cert.Tern.pay2_2_apply x0 x1 xo (ix2 p r)).trans ?_
  rw [Cert.Tern.pay2_1_apply x0 x1 p r]

/-! ## The invariant -/

/-- At the first position of a run the buffer holds the partial dot product over the first 1024 positions. -/
theorem inv2_first (c : Dev nD) (t : Fin cfg2.N) (h0 : t.val % 4 = 0) (p : Fin 2048) (r : Fin 1024) :
    outsAt2 V c t.val t.isLt (ix2 p r)
      = pdot (a := 8192) (b := 4096) (a' := 4096) (b' := 4096) (V c main_v1) (V c main_v0) (2048 * (t.val / 16) + p.val) (1024 * ((t.val / 4) % 4) + r.val) (1024 * (t.val % 4 + 1)) := by
  rw [h0]
  refine (congrFun (outsAt2_A V c t h0) (ix2 p r)).trans ?_
  refine (out2_A_apply (iblk2 V c 0 t) (iblk2 V c 1 t) p r).trans ?_
  refine (blockprod2 V c t p r _ _ 0 rfl rfl h0 _ _ rfl rfl).trans ?_
  rw [pdot_step, pdot_zero, zero_add]

/-- At a later position: the position before left the partial dot product over `1024·(t%4)` positions of the same two
    rows, and the body adds the next 1024 terms. -/
theorem inv2_later (c : Dev nD) (t : Fin cfg2.N) (h0 : ¬t.val % 4 = 0) (p : Fin 2048) (r : Fin 1024)
    (ih : outsAt2 V c (t.val - 1) (Nat.lt_of_le_of_lt (Nat.sub_le _ _) t.isLt) (ix2 p r)
      = pdot (a := 8192) (b := 4096) (a' := 4096) (b' := 4096) (V c main_v1) (V c main_v0) (2048 * ((t.val - 1) / 16) + p.val) (1024 * (((t.val - 1) / 4) % 4) + r.val) (1024 * ((t.val - 1) % 4 + 1))) :
    outsAt2 V c t.val t.isLt (ix2 p r)
      = pdot (a := 8192) (b := 4096) (a' := 4096) (b' := 4096) (V c main_v1) (V c main_v0) (2048 * (t.val / 16) + p.val) (1024 * ((t.val / 4) % 4) + r.val) (1024 * (t.val % 4 + 1)) := by
  have e1 : (t.val - 1) / 16 = t.val / 16 := by omega
  have e2 : ((t.val - 1) / 4) % 4 = (t.val / 4) % 4 := by omega
  have e3 : (t.val - 1) % 4 + 1 = t.val % 4 := by omega
  rw [e1, e2, e3] at ih
  refine (congrFun (outsAt2_B V c t h0) (ix2 p r)).trans ?_
  refine (out2_B_apply (iblk2 V c 0 t) (iblk2 V c 1 t) _ p r).trans ?_
  rw [ih, blockprod2 V c t p r _ _ (t.val % 4) rfl rfl rfl _ _ rfl rfl, pdot_step]

/-- THE INVARIANT: after the body at position `n` the output's staging buffer holds, at `(p, r)`, the partial dot
    product over the first `1024·(n%4 + 1)` positions of the block's rows. By induction on the position. -/
theorem inv2 (c : Dev nD) : ∀ (n : ℕ) (hn : n < cfg2.N) (p : Fin 2048) (r : Fin 1024),
    outsAt2 V c n hn (ix2 p r)
      = pdot (a := 8192) (b := 4096) (a' := 4096) (b' := 4096) (V c main_v1) (V c main_v0) (2048 * (n / 16) + p.val) (1024 * ((n / 4) % 4) + r.val) (1024 * (n % 4 + 1)) := by
  intro n
  induction n with
  | zero => intro hn p r; exact inv2_first V c ⟨0, hn⟩ rfl p r
  | succ n ih =>
    intro hn p r
    by_cases h0 : (n + 1) % 4 = 0
    · exact inv2_first V c ⟨n + 1, hn⟩ h0 p r
    · exact inv2_later V c ⟨n + 1, hn⟩ h0 p r (ih (Nat.lt_of_succ_lt hn) p r)

/-! ## What is written back, and the array -/

/-- What the last position `t` of a run writes back is block `t` of the whole product of the two arrays as the region finds them. -/
theorem flushed2_eq (c : Dev nD) (t : Fin cfg2.N) (hf : t.val % 4 = 3) :
    (dat2 V c).flushed 2 t = ((cfg2.win 2).blk t).view.read (Elt Ideal) (P2 (V c main_v1) (V c main_v0)) := by
  show (cfg2.win 2).cut (grid2.coords t) ((dat2 V c).after 2 t) = _
  rw [after2_2]
  obtain ⟨e0, e1, e2, e3, e4, e5⟩ := idx_facts2 t
  funext j
  obtain ⟨p, r, rfl⟩ : ∃ (p : Fin 2048) (r : Fin 1024), j = ix2 p r := ⟨j 0, j 1, eq_ix2 j⟩
  show outsAt2 V c t.val t.isLt (ix2 p r) = P2 (V c main_v1) (V c main_v0) (((cfg2.win 2).blk t).view.emb (ix2 p r))
  refine (inv2 V c t.val t.isLt p r).trans ?_
  rw [show 1024 * (t.val % 4 + 1) = 4096 by omega]
  refine (P2_eq_pdot (V c main_v1) (V c main_v0) _ _ _ ?_ ?_).symm
  · show win2_2.index t (0 : Fin 2) * 2048 + 1 * p.val = 2048 * (t.val / 16) + p.val; omega
  · show win2_2.index t (1 : Fin 2) * 1024 + 1 * r.val = 1024 * ((t.val / 4) % 4) + r.val; omega

/-- An index of the array is in position `t`'s output block iff each coordinate is in the block's range on its axis. -/
theorem mem_blk2 (t : Fin cfg2.N) (i : S8192x4096.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v2).slice (win2_2.rect t)).set ↔ _
  rw [View.set_slice_whole, Rect.mem_set_unit]
  exact Iff.rfl

/-- The sixteen output blocks tile the array: `(m, n)` is in the block `(m / 2048, n / 1024)`, written back at the last
    position of that block's run. -/
theorem cover2 (i : S8192x4096.Idx) : ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, hf, ht⟩ := idx_onto2 ⟨(i 0).val / 2048, by omega⟩ ⟨(i 1).val / 1024, by omega⟩
  have q0 : win2_2.index t (0 : Fin 2) = (i 0).val / 2048 := congrFun ht 0
  have q1 : win2_2.index t (1 : Fin 2) = (i 1).val / 1024 := congrFun ht 1
  refine ⟨t, (flush2_2 t).mpr hf, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- THE ARRAY after the region: the whole product of the two arrays, everywhere. -/
theorem final2 (c : Dev nD) : (dat2 V c).arrAt 2 cfg2.N = P2 (V c main_v1) (V c main_v0) :=
  (dat2 V c).arrAt_eq_of_cover 2 (P2 (V c main_v1) (V c main_v0)) (fun t hf => flushed2_eq V c t ((flush2_2 t).mp hf)) cover2

end Cert.KernelIdeal.HandValue

end
-- ==== Proof.TernRef.lean ====
/- The reference program computes the specification: its `dot_general` of the activations with the
   elementwise product `sign w · [|w| > 1/2]`, contracting the second axis of each, is `Y x w`.

   Elementwise, the reference's quantized weight at an index is `q` of the weight there (the same
   operations in the same order, so the two agree by unfolding); the `dot_general` at `(m, n)` is the
   sum over `k` of the left operand at `(m, k)` times the right at `(n, k)`. -/
import proofs.«173687_j21423296872678_2_alg».proof.Proof.TernSpec
import proofs.«173687_j21423296872678_2_alg».proof.Proof.Gen.ReferenceIdeal.Read

noncomputable section

namespace Cert.Tern

open Idealize.ShloMosaic Cert.ReferenceIdeal Cert.ReferenceIdeal.Read

/-- The reference's quantized weights at an index: `q` of the weight there. -/
theorem ref_wq_apply (x1 : (⟨Cert.ReferenceIdeal.S4096x4096, .f32⟩ : BufTy).Contents (Elt Ideal))
    (i : Cert.ReferenceIdeal.S4096x4096.Idx) :
    Cert.ReferenceIdeal.Read.val_main_v5 (F := Ideal) x1 i = q (x1 i) := by
  rw [val_main_v5_apply, val_main_v0_apply, val_main_v4_apply, val_main_v3_apply, val_main_v1_apply,
    val_main_v2_apply, val_main_cst_apply]
  rfl

/-- The reference's result is the specification. -/
theorem ref_is_Y (x0 : (⟨Cert.ReferenceIdeal.S8192x4096, .f32⟩ : BufTy).Contents (Elt Ideal))
    (x1 : (⟨Cert.ReferenceIdeal.S4096x4096, .f32⟩ : BufTy).Contents (Elt Ideal)) :
    Cert.ReferenceIdeal.Read.val_main_v6 (F := Ideal) x0 x1 = Y x0 x1 := by
  funext i
  refine (val_main_v6_apply x0 x1 i).trans ?_
  refine Finset.sum_congr rfl fun k _ => ?_
  have el : lidx_main_v6 i k = ValueIdx.ix2 (⟨(i 0).val, (i 0).isLt⟩ : Fin 8192) k :=
    funext fun a => by match a with | ⟨0, _⟩ => rfl | ⟨1, _⟩ => rfl
  have er : ridx_main_v6 i k = ValueIdx.ix2 (⟨(i 1).val, (i 1).isLt⟩ : Fin 4096) k :=
    funext fun a => by match a with | ⟨0, _⟩ => rfl | ⟨1, _⟩ => rfl
  rw [ref_wq_apply, el, er]

end Cert.Tern

end
-- ==== Proof.lean ====
/-
  The certificate of the ternary linear layer: y = x · quantize(weight)ᵀ, the kernel's three regions (quantize the
  weight to {−1, 0, +1} as sign(w)·[|w| > 1/2]; change x's float format; a matrix product blocked 4 × 4 × 4 with the
  output block accumulated over the four blocks of the contracted axis) against the reference's host operations
  (sign, abs, compare, convert, multiply, one dot_general).

  Frames. Each kernel program is three regions in a row; region by region the buffers' contents are followed from the
  launch, every region changing only its own output array, so the two argument arrays end as launched
  (`Cert.Kernel.Hand.frame`, `Cert.KernelIdeal.Hand.frame`). The reference is host operations only: its run is read
  back operation by operation.

  Preserves. The idealized kernel differs from the printed one at one site: "1.0 with w's sign bit" is read as
  −1 where w < 0 and +1 elsewhere, which is that rewrite's stated proposition.

  Algebraic. On the extended reals a change of float format is the identity, so the first region leaves q(w) =
  sign(w)·[|w| > 1/2] at every weight (the kernel's spelling of the sign through a select agrees with the host's sign
  at every extended real, the infinities and zero included), the second leaves x, and the third leaves at (m, n) the
  sum over the four blocks of the contracted axis of the blocks' partial dot products — which is the one sum over all
  4096 indices k of x[m, k]·q(w[n, k]) the reference's dot_general computes, because a finite sum in a commutative
  monoid may be regrouped. No distributivity and no cancellation is used, so the finiteness of the inputs is not needed.
-/
import proofs.«173687_j21423296872678_2_alg».proof.Defs
import proofs.«173687_j21423296872678_2_alg».proof.Proof.Gen.Kernel
import proofs.«173687_j21423296872678_2_alg».proof.Proof.Gen.Kernel.Skeleton
import proofs.«173687_j21423296872678_2_alg».proof.Proof.Gen.Kernel.Launch
import proofs.«173687_j21423296872678_2_alg».proof.Proof.Gen.Kernel.Regions
import proofs.«173687_j21423296872678_2_alg».proof.Proof.Gen.Kernel.Points
import proofs.«173687_j21423296872678_2_alg».proof.Proof.Gen.KernelIdeal
import proofs.«173687_j21423296872678_2_alg».proof.Proof.Gen.KernelIdeal.Skeleton
import proofs.«173687_j21423296872678_2_alg».proof.Proof.Gen.KernelIdeal.Launch
import proofs.«173687_j21423296872678_2_alg».proof.Proof.Gen.KernelIdeal.Regions
import proofs.«173687_j21423296872678_2_alg».proof.Proof.Gen.KernelIdeal.Points
import proofs.«173687_j21423296872678_2_alg».proof.Proof.Gen.ReferenceIdeal
import proofs.«173687_j21423296872678_2_alg».proof.Proof.Gen.ReferenceIdeal.Run
import proofs.«173687_j21423296872678_2_alg».proof.Proof.Gen.ReferenceIdeal.Read
import proofs.«173687_j21423296872678_2_alg».proof.Proof.Gen.Pre_finite_inputs
import proofs.«173687_j21423296872678_2_alg».proof.Proof.KB.Run
import proofs.«173687_j21423296872678_2_alg».proof.Proof.KI.Run
import proofs.«173687_j21423296872678_2_alg».proof.Proof.KI.ValA
import proofs.«173687_j21423296872678_2_alg».proof.Proof.KI.Val2
import proofs.«173687_j21423296872678_2_alg».proof.Proof.TernRef
import Idealize.ShloMosaic.Adequacy
import Idealize.ShloMosaic.Init

noncomputable section

namespace Cert.Proof

open Idealize.ShloMosaic Idealize.ShloMosaic.TcCoe Idealize.SL.Sem

/-! ## The three frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The one rewrite of the idealization -/

theorem preserves : Cert.preserves_Kernel_KernelIdeal := IdealRules.sign_bit.statement Cert.KernelIdeal.S512x4096 .f32

/-! ## The two results are one function of the arguments -/

section
open Cert.KernelIdeal Cert.KernelIdeal.Gen Cert.KernelIdeal.Hand Cert.KernelIdeal.HandValue

/-- What the kernel's third region leaves in the result array, from the launch contents of the two arguments: the
    product of x with the transposed ternary weights, region by region (the third region reads what the first two
    left). -/
theorem kernel_result (m : (ℓ : Loc nD τ sig) → Buf (Elt Ideal) ℓ) (ρ : Dev nD → PrngReg) (c : Dev nD) :
    (dat2 (V2 m ρ) c).arrAt 2 cfg2.N
      = Cert.Tern.Y (m ((c.tc : Thread nD τ).loc main_arg0)) (m ((c.tc : Thread nD τ).loc main_arg1)) := by
  rw [final2 (V2 m ρ) c, V2_main_v1 m ρ c, final1 (V1 m ρ) c, V1_main_arg0 m ρ c, V2_main_v0 m ρ c, final0 (V0 m ρ) c]
  rfl

end

theorem algebraic : Cert.algebraic_KernelIdeal_ReferenceIdeal := by
  intro m ρ m' ρ' _ hagree
  refine ⟨fun c => Cert.Tern.Y (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_result m ρ c), (h c).2.1, (h c).2.2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.Tern.ref_is_Y, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
